-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S100000x128 .f32) (main_arg2 : IVec S1600000 32) (main_arg3 : IVec S1600000 32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S5000x128 : Shape := ⟨2, ![5000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 38
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S128, .f32⟩
  | .hbm, ⟨6, _⟩ => ⟨S100000x128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .i1⟩
  | .hbm, ⟨36, _⟩ => ⟨S100000x128, .i1⟩
  | .hbm, ⟨37, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_call0_v0 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x1 : S_.BroadcastsInDim S100000x1 (![] : Fin 0 → Fin S100000x1.rank)
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 45
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S100000x128, .f32⟩
  | .hbm, ⟨8, _⟩ => ⟨S1x128, .f32⟩
  | .hbm, ⟨9, _⟩ => ⟨S100000x128, .f32⟩
  | .hbm, ⟨10, _⟩ => ⟨S100000x128, .f32⟩
  | .hbm, ⟨11, _⟩ => ⟨S_, .f32⟩
  | .hbm, ⟨12, _⟩ => ⟨S100000x128, .f32⟩
  | .hbm, ⟨13, _⟩ => ⟨S100000x128, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x1, .f32⟩
  | .hbm, ⟨40, _⟩ => ⟨S_, .f32⟩
  | .hbm, ⟨41, _⟩ => ⟨S100000x1, .f32⟩
  | .hbm, ⟨42, _⟩ => ⟨S100000x1, .i1⟩
  | .hbm, ⟨43, _⟩ => ⟨S100000x128, .i1⟩
  | .hbm, ⟨44, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_call1_v0 : Ref sig .tc := ⟨.hbm, 43, rfl⟩
abbrev main_v28 : Ref sig .tc := ⟨.hbm, 44, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x1 : S_.BroadcastsInDim S100000x1 (![] : Fin 0 → Fin S100000x1.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.LinearRelu.lean ====
/-
  The dense layer that every node's feature row passes through before the messages are gathered:
  entry (r, j) of the result is  max (∑ₖ h[r, k] · W[j, k] + b[j]) 0  on the extended reals — the weight
  matrix enters transposed (row j of W against row r of h), the bias is added per column, and the
  negative part is cut off. The zero is kept as the f32 zero word: both programs spell it with that word,
  so it is never evaluated.
-/
import Idealize.ShloMosaic.PureOps.Ideal
import Idealize.ShloMosaic.Lib.ValueIdx

noncomputable section

namespace Cert.LinearRelu

open Idealize.ShloMosaic Idealize.ShloMosaic.ValueIdx

/-- One entry of the layer, by its row `r` (a node) and its column `j` (an output feature). -/
def entry {n : Nat} (h : (⟨2, ![n, 128]⟩ : Shape).Idx → EReal) (W : (⟨2, ![128, 128]⟩ : Shape).Idx → EReal)
    (b : (⟨1, ![128]⟩ : Shape).Idx → EReal) (r : Fin n) (j : Fin 128) : EReal :=
  max ((∑ k : Fin 128, h (ix2 r k) * W (ix2 j k)) + b (ix1 j)) (Ideal.ofBits .f32 0x00000000#32)

/-- The layer over all the rows of `h`, as one function of the three argument arrays. -/
def linRelu {n : Nat} (h : (⟨2, ![n, 128]⟩ : Shape).Idx → EReal) (W : (⟨2, ![128, 128]⟩ : Shape).Idx → EReal)
    (b : (⟨1, ![128]⟩ : Shape).Idx → EReal) : (⟨2, ![n, 128]⟩ : Shape).Idx → EReal :=
  fun i => entry h W b (i 0) (i 1)

theorem linRelu_ix2 {n : Nat} (h : (⟨2, ![n, 128]⟩ : Shape).Idx → EReal) (W : (⟨2, ![128, 128]⟩ : Shape).Idx → EReal)
    (b : (⟨1, ![128]⟩ : Shape).Idx → EReal) (r : Fin n) (j : Fin 128) : linRelu h W b (ix2 r j) = entry h W b r j := rfl

/-- A row of the layer depends on that row of `h` only: if `h'` holds, at its row `p`, what `h` holds at its row `r`,
    the two layers agree there. (A block of rows of `h` gives the same rows of the result.) -/
theorem entry_congr_rows {n n' : Nat} (h : (⟨2, ![n, 128]⟩ : Shape).Idx → EReal) (h' : (⟨2, ![n', 128]⟩ : Shape).Idx → EReal)
    (W : (⟨2, ![128, 128]⟩ : Shape).Idx → EReal) (b : (⟨1, ![128]⟩ : Shape).Idx → EReal) (r : Fin n) (p : Fin n') (j : Fin 128)
    (hrow : ∀ k : Fin 128, h' (ix2 p k) = h (ix2 r k)) : entry h' W b p j = entry h W b r j := by
  unfold entry
  rw [Finset.sum_congr rfl fun k _ => by rw [hrow k]]

end Cert.LinearRelu

end
-- ==== Proof.BlockProduct.lean ====
/-
  What the kernel body stores for one block of 5000 rows, read entry by entry. The body narrows the loaded block of h
  and the loaded W to bf16 (the identity on the extended reals), transposes W, multiplies the block by the transposed
  matrix into a zero accumulator (so the entry is the plain sum of products over the 128 contraction positions), adds
  the bias row spread over the 5000 rows, and cuts at zero. At the row p of the block and the column j this is
  max (∑ₖ x[p, k] · W[j, k] + b[j]) 0: `Cert.LinearRelu.entry` of the block, W and b.
-/
import proofs.«146955_j52793738003171_1_alg».proof.Proof.Gen.KernelIdeal.Skeleton
import proofs.«146955_j52793738003171_1_alg».proof.Proof.LinearRelu
import Idealize.ShloMosaic.PureOps.Ideal.Laws
import Idealize.ShloMosaic.Lib.ValueLayout

noncomputable section

namespace Cert.BlockProduct

open Cert.KernelIdeal Cert.KernelIdeal.Gen Cert.LinearRelu
open Idealize.ShloMosaic Idealize.ShloMosaic.ValueIdx

/-- The product's operand indices, axis by axis: the left operand's row is the output's row and its column the contraction
    position; the right operand's row is the contraction position and its column the output's column. -/
theorem left_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem left_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem right_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem right_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- So at output entry (p, j) and contraction position k the left operand is read at (p, k), -/
theorem left_entry (p : Fin 5000) (j k : Fin 128) :
    dot_S5000x128_S128x128_S5000x128_1_0_0_1_n_n.lhsIdx (ix2 p j)
      ((contrEquiv1 dot_S5000x128_S128x128_S5000x128_1_0_0_1_n_n 128 rfl rfl).symm k) = ix2 p k := by
  have hk := contrEquiv1_symm_val dot_S5000x128_S128x128_S5000x128_1_0_0_1_n_n 128 rfl rfl k
  refine funext fun a => Fin.ext ?_
  match a with
  | ⟨0, _⟩ => exact left_row _ _
  | ⟨1, _⟩ => exact (left_col _ _).trans hk

/-- and the right operand, the transposed matrix, at (k, j). -/
theorem right_entry (p : Fin 5000) (j k : Fin 128) :
    dot_S5000x128_S128x128_S5000x128_1_0_0_1_n_n.rhsIdx (ix2 p j)
      ((contrEquiv1 dot_S5000x128_S128x128_S5000x128_1_0_0_1_n_n 128 rfl rfl).symm k) = ix2 k j := by
  have hk := contrEquiv1_symm_val dot_S5000x128_S128x128_S5000x128_1_0_0_1_n_n 128 rfl rfl k
  refine funext fun a => Fin.ext ?_
  match a with
  | ⟨0, _⟩ => exact (right_row _ _).trans hk
  | ⟨1, _⟩ => exact right_col _ _

/-- The block product into the zero accumulator, at (p, j): the sum over k of x[p, k] · W[j, k]. -/
theorem product_entry (x : FVec Ideal S5000x128 .bf16) (w : FVec Ideal S128x128 .bf16) (p : Fin 5000) (j : Fin 128) :
    matmul (F := Ideal) dot_S5000x128_S128x128_S5000x128_1_0_0_1_n_n none x
        (transpose S128x128 [1, 0] w transposes_S128x128_p1_0_S128x128) (constant (F := Ideal) S5000x128 .f32 0x00000000#32) (ix2 p j)
      = ∑ k : Fin 128, x (ix2 p k) * w (ix2 j k) := by
  refine (Ideal.matmul_constant_zero_apply dot_S5000x128_S128x128_S5000x128_1_0_0_1_n_n none x _ (ix2 p j)).trans ?_
  rw [← Equiv.sum_comp (contrEquiv1 dot_S5000x128_S128x128_S5000x128_1_0_0_1_n_n 128 rfl rfl).symm]
  refine Finset.sum_congr rfl fun k _ => ?_
  rw [left_entry, right_entry]
  exact congrArg (x (ix2 p k) * ·) (transpose_ix2_apply w transposes_S128x128_p1_0_S128x128 k j)

/-- The bias, cast to one row and spread over the block's rows, at (p, j): b at j. -/
theorem bias_entry (b : FVec Ideal S128 .f32) (p : Fin 5000) (j : Fin 128) :
    broadcastTo S5000x128 (shapeCast S1x128 b shapeCasts_S128_S1x128) broadcasts_S1x128_S5000x128 (ix2 p j) = b (ix1 j) :=
  (broadcastTo_1b_ab_apply _ broadcasts_S1x128_S5000x128 p j).trans (shapeCast_a_1a_apply b shapeCasts_S128_S1x128 0 j)

/-- The body's stored value at (p, j) is the layer's entry (p, j) of the loaded block, W and b. -/
theorem stored_entry (x : Vec Ideal S5000x128 .f32) (w : Vec Ideal S128x128 .f32) (b : Vec Ideal S128 .f32) (p : Fin 5000) (j : Fin 128) :
    k0_pay1 (F := Ideal) x w b (ix2 p j) = entry x w b p j := by
  unfold k0_pay1 entry
  refine congrArg₂ max (congrArg₂ (· + ·) ?_ ?_) rfl
  · exact product_entry (truncf .bf16 x bitsLt_bf16_f32) (truncf .bf16 w bitsLt_bf16_f32) p j
  · exact bias_entry b p j

end Cert.BlockProduct

end
-- ==== Proof.NodeFeatures.lean ====
/-
  The node features the kernel leaves in its output array. The grid has 20 points; point t is handed rows
  5000·t … 5000·t + 4999 of h (all 128 columns), the whole of W and the whole of b, and writes back rows
  5000·t … 5000·t + 4999 of the result. Since a row of the dense layer depends on that row of h only, what point t
  writes back is block t of `linRelu h W b`; the 20 blocks tile the 100000 rows; so after the region the array
  holds `linRelu h W b` everywhere.
-/
import proofs.«146955_j52793738003171_1_alg».proof.Proof.Gen.KernelIdeal.Frame
import proofs.«146955_j52793738003171_1_alg».proof.Proof.BlockProduct
import Idealize.ShloMosaic.Lib.Pipeline.Value

noncomputable section

namespace Cert.NodeFeatures

open Cert.KernelIdeal Cert.KernelIdeal.Gen Cert.LinearRelu
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem origin2 : (![0, 0] : Fin 2 → Nat) = fun _ => 0 := funext fun a => by fin_cases a <;> rfl
theorem origin1 : (![0] : Fin 1 → Nat) = fun _ => 0 := funext fun a => by fin_cases a <;> rfl

/-- One stored entry against one entry of the whole layer: if the loaded block `x` holds, in the row of `j`, the row of
    `H` that `i` names, the loaded matrix and bias are `W` and `B`, and `i` and `j` name the same column, then the body's
    stored value at `j` is `linRelu H W B` at `i`. -/
theorem stored_is_layer (x : Vec Ideal S5000x128 .f32) (w : Vec Ideal S128x128 .f32) (b : Vec Ideal S128 .f32)
    (H : S100000x128.Idx → EReal) (W : S128x128.Idx → EReal) (B : S128.Idx → EReal) (i : S100000x128.Idx) (j : S5000x128.Idx)
    (hx : ∀ k : Fin 128, x (ix2 (j 0) k) = H (ix2 (i 0) k)) (hw : ∀ y, w y = W y) (hb : ∀ y, b y = B y)
    (hcol : (i 1).val = (j 1).val) :
    k0_pay1 (F := Ideal) x w b j = linRelu H W B i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  obtain rfl : s = q := Fin.ext hcol
  obtain rfl : w = W := funext hw
  obtain rfl : b = B := funext hb
  rw [Cert.BlockProduct.stored_entry, linRelu_ix2]
  exact entry_congr_rows H x w b r p s hx

/-- The printed index maps, decided over the 20 points: the block of h moves with the output's block along the rows,
    neither moves along the columns, and W and b stay at their one block. -/
theorem block_indices : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 1) = 0 ∧ win0_3.index t (0 : Fin 2) ≤ 19 :=
  (by decide +kernel : ∀ t : Fin grid0.N, _)

/-- Every block of 5000 rows is some point's. -/
theorem block_of_rows : ∀ q : Fin 20, ∃ t : Fin cfg0.N, win0_3.index t = ![q.val, 0] :=
  (by decide +kernel : ∀ q : Fin 20, ∃ t : Fin grid0.N, win0_3.index t = ![q.val, 0])

/-- What point `t` writes back is block `t` of the layer of the argument arrays as the region finds them. -/
theorem written_back (c : Dev nD) (t : Fin cfg0.N) :
    (dats m 0 c).flushed 3 t
      = ((cfg0.win 3).blk t).view.read (Elt Ideal) (linRelu (n := 100000) (V m c main_arg0) (V m c main_arg4) (V m c main_arg5)) := by
  show (cfg0.win 3).cut (grid0.coords t) ((dats m 0 c).after 3 t) = _
  rw [after0_3]
  unfold out0_3
  rw [View.canon_unit_zero origin2]
  simp only [View.ld_unit_zero (S := S5000x128) origin2, View.ld_unit_zero (S := S128x128) origin2, View.ld_unit_zero (S := S128) origin1]
  obtain ⟨e0, e1, e2, e3, e4, e5, e6⟩ := block_indices t
  funext j
  show k0_pay1 (F := Ideal) (iblk m c 0 t) (iblk m c 1 t) (iblk m c 2 t) j
    = linRelu (n := 100000) (V m c main_arg0) (V m c main_arg4) (V m c main_arg5) (((cfg0.win 3).blk t).view.emb j)
  refine stored_is_layer (iblk m c 0 t) (iblk m c 1 t) (iblk m c 2 t) _ _ _ _ j (fun k => ?_) (fun y => ?_) (fun y => ?_) ?_
  · show V m c main_arg0 (((cfg0.win 0).blk t).view.emb (ix2 (j 0) k)) = V m c main_arg0 (ix2 ((((cfg0.win 3).blk t).view.emb j) 0) k)
    have h0 : ((cfg0.win 0).blk t).view.emb (ix2 (j 0) k) = ix2 ((((cfg0.win 3).blk t).view.emb j) 0) k := by
      funext a; apply Fin.ext
      match a with
      | ⟨0, _⟩ => show win0_0.index t (0 : Fin 2) * 5000 + 1 * (j 0).val = win0_3.index t (0 : Fin 2) * 5000 + 1 * (j 0).val; omega
      | ⟨1, _⟩ => show win0_0.index t (1 : Fin 2) * 128 + 1 * k.val = k.val; omega
    exact congrArg (fun i => V m c main_arg0 i) h0
  · show V m c main_arg4 (((cfg0.win 1).blk t).view.emb y) = V m c main_arg4 y
    have h1 : ((cfg0.win 1).blk t).view.emb y = y := by
      funext a; apply Fin.ext
      match a with
      | ⟨0, _⟩ => show win0_1.index t (0 : Fin 2) * 128 + 1 * (y 0).val = (y 0).val; omega
      | ⟨1, _⟩ => show win0_1.index t (1 : Fin 2) * 128 + 1 * (y 1).val = (y 1).val; omega
    exact congrArg (fun i => V m c main_arg4 i) h1
  · show V m c main_arg5 (((cfg0.win 2).blk t).view.emb y) = V m c main_arg5 y
    have h2 : ((cfg0.win 2).blk t).view.emb y = y := by
      funext a; apply Fin.ext
      match a with
      | ⟨0, _⟩ => show win0_2.index t (0 : Fin 1) * 128 + 1 * (y 0).val = (y 0).val; omega
    exact congrArg (fun i => V m c main_arg5 i) h2
  · show win0_3.index t (1 : Fin 2) * 128 + 1 * (j 1).val = (j 1).val
    omega

/-- An index of the array is in point `t`'s block iff each coordinate is in the block's range on its axis. -/
theorem mem_block (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v0).slice (win0_3.rect t)).set ↔ _
  rw [View.set_slice_whole, Rect.mem_set_unit]
  exact Iff.rfl

/-- Every index of the array is in some point's block: row r belongs to point r / 5000. -/
theorem covered (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := block_of_rows ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the region the output array holds the dense layer of h, W and b as launched. -/
theorem features (c : Dev nD) :
    (dats m 0 c).arrAt 3 cfg0.N
      = linRelu (n := 100000) (m ((c : Thread nD τ).loc main_arg0)) (m ((c : Thread nD τ).loc main_arg4)) (m ((c : Thread nD τ).loc main_arg5)) :=
  (dats m 0 c).arrAt_eq_of_cover 3 _ (fun t _ => written_back m c t) covered

end Cert.NodeFeatures

end
-- ==== Proof.NeighbourMean.lean ====
/-
  What both programs do with the node features once the dense layer has produced them: every edge carries the features
  of its source node to its destination node; a node's messages are summed (a scatter-add by destination) and divided by
  its in-degree (the scatter-add of ones by destination, taken as at least one); a node with no in-edge keeps its own
  features. A negative source index counts from the end of the node axis, as the gather's lowering spells it.
  The two programs apply these same host operations, with the same literals, to their features: the function is stated
  once, of the features and the two edge arrays, and is never opened.
-/
import proofs.«146955_j52793738003171_1_alg».proof.Proof.Gen.ReferenceIdeal
import Idealize.ShloMosaic.PureOps.Ideal

noncomputable section

namespace Cert.NeighbourMean

open Cert.ReferenceIdeal Cert.ReferenceIdeal.Gen Idealize.ShloMosaic

/-- One 32-bit integer per edge. -/
abbrev Edges : Type := (⟨S1600000, .i32⟩ : BufTy).Contents (Elt Ideal)
/-- One row of 128 extended reals per node. -/
abbrev Features : Type := (⟨S100000x128, .f32⟩ : BufTy).Contents (Elt Ideal)

/-- The number of edges that end at each node: ones scattered and added by destination, from zero. -/
def inDegree (dst : Edges) : (⟨S100000, .f32⟩ : BufTy).Contents (Elt Ideal) :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- The source index of each edge, a negative one moved up by the number of nodes. -/
def wrappedSource (src : Edges) : Edges :=
  select (cmpi .slt src (broadcastInDim S1600000 ![] bcast_S_S1600000 (constantI S_ 32 0#32)))
    (addi src (broadcastInDim S1600000 ![] bcast_S_S1600000 (constantI S_ 32 100000#32))) src

/-- Each node's sum of the features its in-edges carry: the rows gathered at the sources, scattered and added by destination. -/
def messageSum (hr : Features) (src dst : Edges) : Features :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 hr
      (broadcastInDim S1600000x1 ![0] bcast_S1600000_S1600000x1_0 (wrappedSource src)))

/-- The mean over the in-neighbours where there is one, the node's own features where there is none. -/
def neighbourMean (hr : Features) (src dst : Edges) : Features :=
  select
    (broadcastInDim S100000x128 ![0, 1] bcast_S100000x1_S100000x128_0_1
      (cmpf (F := Ideal) .ogt (broadcastInDim S100000x1 ![0] bcast_S100000_S100000x1_0 (inDegree dst))
        (broadcastInDim S100000x1 ![] bcast_S_S100000x1 (constant (F := Ideal) S_ .f32 0x00000000#32))))
    (Host.divf (F := Ideal) (messageSum hr src dst)
      (broadcastInDim S100000x128 ![0, 1] bcast_S100000x1_S100000x128_0_1
        (broadcastInDim S100000x1 ![0] bcast_S100000_S100000x1_0
          (maximumf (inDegree dst) (broadcastInDim S100000 ![] bcast_S_S100000 (constant (F := Ideal) S_ .f32 0x3F800000#32))))))
    hr

end Cert.NeighbourMean

end
-- ==== Proof.KernelResult.lean ====
/-
  The idealized kernel's result. After the region the program applies the host operations of `Cert.NeighbourMean` to the
  region's output array and to the two edge arrays, which no window touches. The run of the program leaves its result
  buffer at those operations' value over "the memory with the region's arrays put in"; read there, the output array is the
  dense layer of h, W and b (`Cert.NodeFeatures.features`) and the edge arrays are as launched. So the result is
  `neighbourMean (linRelu h W b) src dst` of the launch contents.
-/
import proofs.«146955_j52793738003171_1_alg».proof.Proof.NodeFeatures
import proofs.«146955_j52793738003171_1_alg».proof.Proof.NeighbourMean
import Idealize.ShloMosaic.Lib.StableHlo.Run

noncomputable section

namespace Cert.KernelResult

open Cert.KernelIdeal Cert.KernelIdeal.Gen Cert.LinearRelu Cert.NeighbourMean
open Idealize.ShloMosaic Idealize.ShloMosaic.TcCoe Idealize.SL.Sem Idealize.ShloMosaic.StableHlo
open Idealize.ShloMosaic.Pipeline (Dat)

/-- The shared function, spelt with this program's own records and shape facts (the two programs print the same gather,
    the same two scatter-adds and the same broadcasts, each under its own name): the same function, by unfolding the names. -/
theorem neighbourMean_spelt (hr : Features) (src dst : Edges) : neighbourMean hr src dst =
  select
    (broadcastInDim S100000x128 ![0, 1] Facts₀.bcast_S100000x1_S100000x128_0_1
      (cmpf (F := Ideal) .ogt (broadcastInDim S100000x1 ![0] Facts₀.bcast_S100000_S100000x1_0
        (Host.scatterAdd (F := Ideal) scatter_S100000_S1600000x1_S1600000_n_0_0_1
          (broadcastInDim S100000 ![] Facts₀.bcast_S_S100000 (constant (F := Ideal) S_ .f32 0x00000000#32))
          (broadcastInDim S1600000x1 ![0] Facts₀.bcast_S1600000_S1600000x1_0 dst)
          (broadcastInDim S1600000 ![] Facts₀.bcast_S_S1600000 (constant (F := Ideal) S_ .f32 0x3F800000#32))))
        (broadcastInDim S100000x1 ![] Facts₀.bcast_S_S100000x1 (constant (F := Ideal) S_ .f32 0x00000000#32))))
    (Host.divf (F := Ideal)
      (Host.scatterAdd (F := Ideal) scatter_S100000x128_S1600000x1_S1600000x128_1_0_0_1
        (broadcastInDim S100000x128 ![] Facts₀.bcast_S_S100000x128 (constant (F := Ideal) S_ .f32 0x00000000#32))
        (broadcastInDim S1600000x1 ![0] Facts₀.bcast_S1600000_S1600000x1_0 dst)
        (Host.gather gather_S100000x128_S1600000x1_S1600000x128_1_0_n_n_0_1_1128 hr
          (broadcastInDim S1600000x1 ![0] Facts₀.bcast_S1600000_S1600000x1_0
            (select (cmpi .slt src (broadcastInDim S1600000 ![] Facts₀.bcast_S_S1600000 (constantI S_ 32 0#32)))
              (addi src (broadcastInDim S1600000 ![] Facts₀.bcast_S_S1600000 (constantI S_ 32 100000#32))) src))))
      (broadcastInDim S100000x128 ![0, 1] Facts₀.bcast_S100000x1_S100000x128_0_1
        (broadcastInDim S100000x1 ![0] Facts₀.bcast_S100000_S100000x1_0
          (maximumf
            (Host.scatterAdd (F := Ideal) scatter_S100000_S1600000x1_S1600000_n_0_0_1
              (broadcastInDim S100000 ![] Facts₀.bcast_S_S100000 (constant (F := Ideal) S_ .f32 0x00000000#32))
              (broadcastInDim S1600000x1 ![0] Facts₀.bcast_S1600000_S1600000x1_0 dst)
              (broadcastInDim S1600000 ![] Facts₀.bcast_S_S1600000 (constant (F := Ideal) S_ .f32 0x3F800000#32)))
            (broadcastInDim S100000 ![] Facts₀.bcast_S_S100000 (constant (F := Ideal) S_ .f32 0x3F800000#32))))))
    hr := rfl

set_option maxHeartbeats 200000 in
/-- The last two operations belong to a called function, whose operands and result are read and written through typed
    references: a buffer's contents are transported along "the buffer's type is the value's type". For these literal buffers
    the two types are the same, so each transport is the identity — stated over ANY three operand values, so that nothing of
    the operands is ever looked into. -/
theorem transports_id (A : (⟨S100000x1, .i1⟩ : BufTy).Contents (Elt Ideal)) (B C : (⟨S100000x128, .f32⟩ : BufTy).Contents (Elt Ideal)) :
    (TRef.of main_v23 : TRef sig ⟨S100000x128, .f32⟩).toBuf (Val := Elt Ideal)
      (select
        ((TRef.of main_call0_v0 : TRef sig ⟨S100000x128, .i1⟩).ofBuf
          ((TRef.of main_call0_v0 : TRef sig ⟨S100000x128, .i1⟩).toBuf (Val := Elt Ideal)
            (broadcastInDim S100000x128 ![0, 1] Facts₀.bcast_S100000x1_S100000x128_0_1
              ((TRef.of main_v22 : TRef sig ⟨S100000x1, .i1⟩).ofBuf (Val := Elt Ideal) A))))
        ((TRef.of main_v19 : TRef sig ⟨S100000x128, .f32⟩).ofBuf (Val := Elt Ideal) B)
        ((TRef.of main_v0 : TRef sig ⟨S100000x128, .f32⟩).ofBuf (Val := Elt Ideal) C))
      = select (broadcastInDim S100000x128 ![0, 1] Facts₀.bcast_S100000x1_S100000x128_0_1 A) B C := rfl

set_option maxHeartbeats 400000 in
/-- The host operations after the region, over ANY contents of the buffers they read: the result buffer ends at
    `neighbourMean` of the features buffer and the two edge buffers. Each operation's result is read off in turn; what is left
    is the operations' composed term under the called function's transports, which `transports_id` removes, and that term is
    `neighbourMean` as this program spells it. -/
theorem after_region (Vl : Valuation τ sig (Elt Ideal)) :
    StableHlo.after (List.flatten [hostOps1 (F := Ideal), hostOps1_1 (F := Ideal)]) Vl (Proc.devRef .tc main_v23)
      = neighbourMean (Vl (Proc.devRef .tc main_v0)) (Vl (Proc.devRef .tc main_arg2)) (Vl (Proc.devRef .tc main_arg3)) := by
  simp only [hostOps1, hostOps1_1, List.flatten_cons, List.flatten_nil, List.append_nil, List.cons_append, List.nil_append]
  after_results_simp
  exact (transports_id _ _ _).trans (neighbourMean_spelt _ _ _).symm

/-- The same with the three buffers' contents named. -/
theorem after_region_of (Vl : Valuation τ sig (Elt Ideal)) (hr : Features) (src dst : Edges)
    (e0 : Vl (Proc.devRef .tc main_v0) = hr) (e2 : Vl (Proc.devRef .tc main_arg2) = src) (e3 : Vl (Proc.devRef .tc main_arg3) = dst) :
    StableHlo.after (List.flatten [hostOps1 (F := Ideal), hostOps1_1 (F := Ideal)]) Vl (Proc.devRef .tc main_v23)
      = neighbourMean hr src dst := by
  subst e0 e2 e3
  exact after_region Vl

variable (m : (ℓ : Loc nD τ sig) → Buf (Elt Ideal) ℓ) (ρ : Dev nD → PrngReg)

/-- What the run leaves in the result buffer: the neighbour mean of the dense layer of the launch contents. -/
theorem result (c : Dev nD) :
    Pipeline.afterTail₀ cfgs (dats m) 0 (V0 m) [hostOps1, hostOps1_1] c main_v23
      = neighbourMean (linRelu (n := 100000) (m ((c : Thread nD τ).loc main_arg0)) (m ((c : Thread nD τ).loc main_arg4)) (m ((c : Thread nD τ).loc main_arg5)))
          (m ((c : Thread nD τ).loc main_arg2)) (m ((c : Thread nD τ).loc main_arg3)) := by
  unfold Pipeline.afterTail₀
  exact after_region_of _ _ _ _
    ((Pipeline.withArrays_arr spec0 launch0.win.arr_inj c _ _ 3).trans (Cert.NodeFeatures.features m c))
    ((Pipeline.withArrays_of_ne _ c (V0 m c) _ main_arg2 (by exact (by decide : ∀ w, Pipeline.arrRef spec0 w ≠ main_arg2))).trans (V_main_arg2 m c))
    ((Pipeline.withArrays_of_ne _ c (V0 m c) _ main_arg3 (by exact (by decide : ∀ w, Pipeline.arrRef spec0 w ≠ main_arg3))).trans (V_main_arg3 m c))

/-- The idealized kernel's run: every weakly fair execution terminates with the result buffer at the neighbour mean of the
    dense layer of the launch contents, and the six argument arrays unchanged. -/
theorem run : θ_run defs (onTc (τ := τ) (main (F := Ideal))) ⟨m, fun _ => 0, ρ⟩ (fun r => ∀ c : Dev nD,
      r.2.mem ((c.tc : Thread nD τ).loc main_v23)
        = neighbourMean (linRelu (n := 100000) (m ((c.tc : Thread nD τ).loc main_arg0)) (m ((c.tc : Thread nD τ).loc main_arg4)) (m ((c.tc : Thread nD τ).loc main_arg5)))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v23 (Pipeline.mem_restRefs_of main_v23 (by decide) (by decide))).trans (result m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 1).trans (((dats m 0 c).arrAt_in 1 rfl _).trans ((A_eq m c 1).trans (V_main_arg4 m c))),
      ((h c).1 2).trans (((dats m 0 c).arrAt_in 2 rfl _).trans ((A_eq m c 2).trans (V_main_arg5 m c)))⟩)
    (run_main m ρ)

end Cert.KernelResult

end
-- ==== Proof.ReferenceLinearRelu.lean ====
/-
  The reference's dense layer, read entry by entry: its transpose of W, its product of h with the transposed
  matrix, its two broadcasts of the bias, its sum and its cut at zero are, at the row r and column j,
  max (∑ₖ h[r, k] · W[j, k] + b[j]) 0 — the function `Cert.LinearRelu.linRelu` of the three argument arrays.
  Each stage is read by the lemma generated for it; what is written here is which entry of which operand each
  stage's index function names.
-/
import proofs.«146955_j52793738003171_1_alg».proof.Proof.ReferenceRead
import proofs.«146955_j52793738003171_1_alg».proof.Proof.LinearRelu

noncomputable section

namespace Cert.ReferenceLinearRelu

open Cert.ReferenceIdeal Cert.ReferenceIdeal.ReadP Cert.LinearRelu
open Idealize.ShloMosaic Idealize.ShloMosaic.ValueIdx

/-- The product's left factor at (r, j) and contraction position k is h at (r, k). -/
theorem left_entry (r : Fin 100000) (j k : Fin 128) : lidx_main_v1 (ix2 r j) k = ix2 r k :=
  funext fun a => Fin.ext (by match a with | ⟨0, _⟩ => rfl | ⟨1, _⟩ => rfl)

/-- Its right factor is the transposed matrix at (k, j), -/
theorem right_entry (r : Fin 100000) (j k : Fin 128) : ridx_main_v1 (ix2 r j) k = ix2 k j :=
  funext fun a => Fin.ext (by match a with | ⟨0, _⟩ => rfl | ⟨1, _⟩ => rfl)

/-- which is W at (j, k). -/
theorem transposed_entry (j k : Fin 128) : idx_main_v0 (ix2 k j) = ix2 j k :=
  funext fun a => Fin.ext (by match a with | ⟨0, _⟩ => rfl | ⟨1, _⟩ => rfl)

/-- The bias spread over the rows reads, at (r, j), its one row at j, -/
theorem bias_row (r : Fin 100000) (j : Fin 128) : idx_main_v3 (ix2 r j) = ix2 (0 : Fin 1) j :=
  funext fun a => Fin.ext (by match a with | ⟨0, _⟩ => rfl | ⟨1, _⟩ => rfl)

/-- which is b at j. -/
theorem bias_entry (j : Fin 128) : idx_main_v2 (ix2 (0 : Fin 1) j) = ix1 j :=
  funext fun a => Fin.ext (by match a with | ⟨0, _⟩ => rfl)

/-- The reference's features after its dense layer are `linRelu` of h, W and b. -/
theorem features_eq (x0 : (⟨S100000x128, .f32⟩ : BufTy).Contents (Elt Ideal)) (x4 : (⟨S128x128, .f32⟩ : BufTy).Contents (Elt Ideal))
    (x5 : (⟨S128, .f32⟩ : BufTy).Contents (Elt Ideal)) :
    val_main_v5 (F := Ideal) x0 x4 x5 = linRelu x0 x4 x5 := by
  funext i
  obtain ⟨r, j, rfl⟩ : ∃ (r : Fin 100000) (j : Fin 128), i = ix2 r j := ⟨i 0, i 1, eq_ix2 i⟩
  rw [val_main_v5_apply, val_main_v4_apply, val_main_v1_apply, val_main_v3_apply, val_main_v2_apply,
    val_main_call0_v0_apply, val_main_call0_cst_apply, linRelu_ix2]
  simp only [val_main_v0_apply, left_entry, right_entry, transposed_entry, bias_row, bias_entry,
    Ideal.maximumf_def, Ideal.addf_def, Ideal.ofBits_def]
  rfl

end Cert.ReferenceLinearRelu

end
-- ==== Proof.ReferenceResult.lean ====
/-
  The idealized reference's result: its last stage is the shared neighbour mean applied to its own dense layer, which is
  `linRelu h W b` (`Cert.ReferenceLinearRelu.features_eq`). The first equation only regroups the reference's stages —
  the features on one side, the operations after them on the other — and holds by unfolding the stages' names.
-/
import proofs.«146955_j52793738003171_1_alg».proof.Proof.ReferenceLinearRelu
import proofs.«146955_j52793738003171_1_alg».proof.Proof.NeighbourMean

noncomputable section

namespace Cert.ReferenceResult

open Cert.ReferenceIdeal Cert.ReferenceIdeal.ReadP Cert.LinearRelu Cert.NeighbourMean
open Idealize.ShloMosaic

/-- The reference's result stage is the neighbour mean of its features stage. -/
theorem result_of_features (x0 : (⟨S100000x128, .f32⟩ : BufTy).Contents (Elt Ideal)) (x2 x3 : (⟨S1600000, .i32⟩ : BufTy).Contents (Elt Ideal))
    (x4 : (⟨S128x128, .f32⟩ : BufTy).Contents (Elt Ideal)) (x5 : (⟨S128, .f32⟩ : BufTy).Contents (Elt Ideal)) :
    val_main_v28 (F := Ideal) x0 x2 x3 x4 x5 = neighbourMean (val_main_v5 (F := Ideal) x0 x4 x5) x2 x3 := rfl

/-- So it is the neighbour mean of the dense layer of h, W and b. -/
theorem result (x0 : (⟨S100000x128, .f32⟩ : BufTy).Contents (Elt Ideal)) (x2 x3 : (⟨S1600000, .i32⟩ : BufTy).Contents (Elt Ideal))
    (x4 : (⟨S128x128, .f32⟩ : BufTy).Contents (Elt Ideal)) (x5 : (⟨S128, .f32⟩ : BufTy).Contents (Elt Ideal)) :
    val_main_v28 (F := Ideal) x0 x2 x3 x4 x5 = neighbourMean (linRelu (n := 100000) x0 x4 x5) x2 x3 := by
  rw [result_of_features, Cert.ReferenceLinearRelu.features_eq]

end Cert.ReferenceResult

end
-- ==== Proof.lean ====
/-
  A graph layer: every node's feature row goes through a dense layer, hr = max (h · Wᵀ + b) 0, and is then replaced by the
  mean of hr over the node's in-neighbours (a node without in-edges keeps its own row). The kernel computes the dense layer
  in a region that walks the 100000 rows in 20 blocks of 5000, narrowing its operands to bf16 on the way into the matrix
  product, and leaves the gather, the two scatter-adds, the division and the final choice to the host; the reference does all
  of it on the host.

  On the extended reals the narrowing is the identity, the block product into a zero accumulator and the host's product are
  the same sum ∑ₖ h[r, k] · W[j, k], and a row of the dense layer depends on that row of h only — so the region's output
  array and the reference's features are one function of h, W and b (`Cert.LinearRelu.linRelu`), and the host operations
  after them are literally the same in both programs (`Cert.NeighbourMean.neighbourMean`). Nothing here divides, cancels or
  distributes: the precondition is not used.

  The three frames: the two kernels' are the frame certificates generated for them; the reference's is its run with the
  result dropped. The idealization rewrote nothing, so `preserves` is `True`.
-/
import proofs.«146955_j52793738003171_1_alg».proof.Defs
import proofs.«146955_j52793738003171_1_alg».proof.Proof.Gen.Kernel
import proofs.«146955_j52793738003171_1_alg».proof.Proof.Gen.Kernel.Skeleton
import proofs.«146955_j52793738003171_1_alg».proof.Proof.Gen.Kernel.Launch
import proofs.«146955_j52793738003171_1_alg».proof.Proof.Gen.Kernel.Points
import proofs.«146955_j52793738003171_1_alg».proof.Proof.Gen.Kernel.Frame
import proofs.«146955_j52793738003171_1_alg».proof.Proof.Gen.KernelIdeal
import proofs.«146955_j52793738003171_1_alg».proof.Proof.Gen.KernelIdeal.Skeleton
import proofs.«146955_j52793738003171_1_alg».proof.Proof.Gen.KernelIdeal.Launch
import proofs.«146955_j52793738003171_1_alg».proof.Proof.Gen.KernelIdeal.Points
import proofs.«146955_j52793738003171_1_alg».proof.Proof.Gen.KernelIdeal.Frame
import proofs.«146955_j52793738003171_1_alg».proof.Proof.Gen.ReferenceIdeal
import proofs.«146955_j52793738003171_1_alg».proof.Proof.Gen.Pre_finite_inputs
import proofs.«146955_j52793738003171_1_alg».proof.Proof.KernelResult
import proofs.«146955_j52793738003171_1_alg».proof.Proof.ReferenceResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the six arguments both idealized programs end with their result at the neighbour mean of the
    dense layer of h, W and b: the kernel by its run read through the region and the host operations after it, the reference
    by its run read stage by stage. -/
theorem algebraic : Cert.algebraic_KernelIdeal_ReferenceIdeal := by
  intro m ρ m' ρ' _ hagree
  refine ⟨_, Cert.KernelResult.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v28_eq, Cert.ReferenceResult.result,
    (hagree c).1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
